-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S100000x64, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run, with its result named.

  @main is eight segments: three stretches of host operations, the first matrix-product region, two more stretches, the
  second region, and a last stretch. The contents of every buffer at each boundary are a fold through those segments
  (`W0` … `W8`). Every weakly fair execution terminates, nothing faulting, with every unscoped buffer at the last
  boundary's contents; read at the result buffer this says what the program returns, and read at the argument buffers that
  they end as launched.
-/
import proofs.«118363_j28613072126261_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents `W8` and the
    six argument arrays as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.MatmulPayload.lean ====
/-
  What each kernel body stores, read at an index, over the extended reals.

  Both bodies load a block of 5000 rows (128 columns) and the whole weight matrix, cast both to bf16 — the identity on
  extended reals — and store their matrix product accumulated into a zero block. So entry (r, c) of the stored block is
  the plain sum  ∑ₖ x(r, k) · w(k, c)  over the 128 contracted columns. The second body first casts its row block to its
  own shape, which changes nothing.
-/
import proofs.«118363_j28613072126261_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic

/-! ## The first product: a [5000,128] block of rows times the [128,128] weights

The operand indices of the product at output index `j` and contraction index `q`: the left operand is read at
(row of `j`, `q`), the right at (`q`, column of `j`). -/

theorem lhs0_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs0_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs0_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction's sum over the record's one-axis index set, re-indexed over `k : Fin 128`: the left operand is read at
    `(row of j, k)` and the right at `(k, column of j)`. -/
theorem sum0 (x0 : FVec Ideal S5000x128 .f32) (x1 : FVec Ideal S128x128 .f32) (j : S5000x128.Idx) :
    (∑ q : dot_S5000x128_S128x128_S5000x128_1_0_0_1_n_n.contr.Idx, x0 (dot_S5000x128_S128x128_S5000x128_1_0_0_1_n_n.lhsIdx j q) * x1 (dot_S5000x128_S128x128_S5000x128_1_0_0_1_n_n.rhsIdx j q))
      = ∑ k : Fin 128, x0 (ValueIdx.ix2 (⟨(j 0).val, (j 0).isLt⟩ : Fin 5000) k) * x1 (ValueIdx.ix2 k (⟨(j 1).val, (j 1).isLt⟩ : Fin 128)) := by
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k)
      = ValueIdx.ix2 (⟨(j 0).val, (j 0).isLt⟩ : Fin 5000) k := funext fun a => Fin.ext (by
    match a with
    | ⟨0, _⟩ => exact lhs0_row _ _
    | ⟨1, _⟩ => exact (lhs0_col _ _).trans hk)
  have er : dot_S5000x128_S128x128_S5000x128_1_0_0_1_n_n.rhsIdx j ((ValueIdx.contrEquiv1 dot_S5000x128_S128x128_S5000x128_1_0_0_1_n_n 128 rfl rfl).symm k)
      = ValueIdx.ix2 k (⟨(j 1).val, (j 1).isLt⟩ : Fin 128) := funext fun a => Fin.ext (by
    match a with
    | ⟨0, _⟩ => exact (rhs0_row _ _).trans hk
    | ⟨1, _⟩ => exact rhs0_col _ _)
  rw [el, er]

/-- Entry `j` of what the first body stores is `∑ₖ x(row j, k) · w(k, col j)`. -/
theorem stored0_apply (x0 : Vec Ideal S5000x128 .f32) (x1 : Vec Ideal S128x128 .f32) (j : S5000x128.Idx) :
    k0_pay1 (F := Ideal) x0 x1 j
      = ∑ k : Fin 128, x0 (ValueIdx.ix2 (⟨(j 0).val, (j 0).isLt⟩ : Fin 5000) k) * x1 (ValueIdx.ix2 k (⟨(j 1).val, (j 1).isLt⟩ : Fin 128)) := by
  unfold k0_pay1
  refine (Ideal.matmul_constant_zero_apply dot_S5000x128_S128x128_S5000x128_1_0_0_1_n_n none _ _ j).trans ?_
  exact sum0 x0 x1 j

/-! ## The second product: a [5000,128] block of rows times the [128,64] weights -/

theorem lhs1_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs1_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs1_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The contraction's sum over the record's one-axis index set, re-indexed over `k : Fin 128`: the left operand is read at
    `(row of j, k)` and the right at `(k, column of j)`. -/
theorem sum1 (x0 : FVec Ideal S5000x128 .f32) (x1 : FVec Ideal S128x64 .f32) (j : S5000x64.Idx) :
    (∑ q : dot_S5000x128_S128x64_S5000x64_1_0_0_1_n_n.contr.Idx, x0 (dot_S5000x128_S128x64_S5000x64_1_0_0_1_n_n.lhsIdx j q) * x1 (dot_S5000x128_S128x64_S5000x64_1_0_0_1_n_n.rhsIdx j q))
      = ∑ k : Fin 128, x0 (ValueIdx.ix2 (⟨(j 0).val, (j 0).isLt⟩ : Fin 5000) k) * x1 (ValueIdx.ix2 k (⟨(j 1).val, (j 1).isLt⟩ : Fin 64)) := by
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k)
      = ValueIdx.ix2 (⟨(j 0).val, (j 0).isLt⟩ : Fin 5000) k := funext fun a => Fin.ext (by
    match a with
    | ⟨0, _⟩ => exact lhs1_row _ _
    | ⟨1, _⟩ => exact (lhs1_col _ _).trans hk)
  have er : dot_S5000x128_S128x64_S5000x64_1_0_0_1_n_n.rhsIdx j ((ValueIdx.contrEquiv1 dot_S5000x128_S128x64_S5000x64_1_0_0_1_n_n 128 rfl rfl).symm k)
      = ValueIdx.ix2 k (⟨(j 1).val, (j 1).isLt⟩ : Fin 64) := funext fun a => Fin.ext (by
    match a with
    | ⟨0, _⟩ => exact (rhs1_row _ _).trans hk
    | ⟨1, _⟩ => exact rhs1_col _ _)
  rw [el, er]

/-- Entry `j` of what the second body stores is `∑ₖ x(row j, k) · w(k, col j)`. -/
theorem stored1_apply (x0 : Vec Ideal S5000x128 .f32) (x1 : Vec Ideal S128x64 .f32) (j : S5000x64.Idx) :
    k1_pay1 (F := Ideal) x0 x1 j
      = ∑ k : Fin 128, x0 (ValueIdx.ix2 (⟨(j 0).val, (j 0).isLt⟩ : Fin 5000) k) * x1 (ValueIdx.ix2 k (⟨(j 1).val, (j 1).isLt⟩ : Fin 64)) := by
  unfold k1_pay1
  refine (Ideal.matmul_constant_zero_apply dot_S5000x128_S128x64_S5000x64_1_0_0_1_n_n none _ _ j).trans ?_
  rw [shapeCast_self]
  exact sum1 x0 x1 j

end Cert.KernelIdeal.Payload

end
-- ==== Proof.MatProduct.lean ====
/-
  The plain matrix product of two arrays of extended reals, index by index:
  entry (r, c) of an [M,K] array times a [K,N] array is  ∑ₖ X(r, k) · W(k, c).
  Both programs' dense layers are this function: the kernel computes it 5000 rows at a time, the reference in one
  contraction.
-/
import Idealize.ShloMosaic.Lib.ValueIdx
import Idealize.ShloMosaic.PureOps.Ideal

noncomputable section

namespace Cert.MatProduct

open Idealize.ShloMosaic

/-- `X · W` for `X : [M,K]`, `W : [K,N]` over the extended reals: entry `i = (r, c)` is `∑ₖ X(r,k) · W(k,c)`. -/
def prod (M K N : Nat) (X : (⟨2, ![M, K]⟩ : Shape).Idx → EReal) (W : (⟨2, ![K, N]⟩ : Shape).Idx → EReal) :
    (⟨2, ![M, N]⟩ : Shape).Idx → EReal :=
  fun i => ∑ k : Fin K, X (ValueIdx.ix2 (⟨(i 0).val, (i 0).isLt⟩ : Fin M) k) * W (ValueIdx.ix2 k (⟨(i 1).val, (i 1).isLt⟩ : Fin N))

theorem prod_apply (M K N : Nat) (X : (⟨2, ![M, K]⟩ : Shape).Idx → EReal) (W : (⟨2, ![K, N]⟩ : Shape).Idx → EReal)
    (i : (⟨2, ![M, N]⟩ : Shape).Idx) :
    prod M K N X W i = ∑ k : Fin K, X (ValueIdx.ix2 (⟨(i 0).val, (i 0).isLt⟩ : Fin M) k) * W (ValueIdx.ix2 k (⟨(i 1).val, (i 1).isLt⟩ : Fin N)) := rfl

end Cert.MatProduct

end
-- ==== Proof.BlocksToArray.lean ====
/-
  From blocks to the array: what each matrix-product region leaves in its output array.

  A region runs its body at 20 grid points. Point `t` loads rows 5000·t … 5000·t+4999 of the left array and the whole
  weight matrix, and writes back the same rows of the output. The stored block is the product of the loaded blocks, entry
  by entry a sum over the 128 contracted columns, so what point `t` writes back is block `t` of the product of the two
  WHOLE arrays; the 20 blocks tile the 100000 rows (row r is in block r / 5000), so the output array ends holding the
  whole product.
-/
import proofs.«118363_j28613072126261_1_alg».proof.Proof.Gen.KernelIdeal.Frame
import proofs.«118363_j28613072126261_1_alg».proof.Proof.MatmulPayload
import proofs.«118363_j28613072126261_1_alg».proof.Proof.MatProduct

set_option maxRecDepth 16384

noncomputable section

namespace Cert.KernelIdeal.Blocks

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- Every access of the bodies starts at the origin of its buffer. -/
theorem origin2 : (![0, 0] : Fin 2 → Nat) = fun _ => 0 := funext fun a => by fin_cases a <;> rfl

/-! ## Region 0: `main_v30 = main_arg0 · main_arg2`

Grid point `t` (of 20) holds rows `5000·t … 5000·t + 4999` of the left array and of the output, and the whole weight
matrix. -/

/-- The printed index maps, decided over the 20 grid points: the row-block windows are at block `t` of the rows and
    block 0 of the columns; the weights' window is always block (0, 0). -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed0 (c : Dev nD) (t : Fin cfg0.N) :
    (dat0 V c).flushed 2 t
      = ((cfg0.win 2).blk t).view.read (Elt Ideal) (MatProduct.prod 100000 128 128 (V c main_arg0) (V c main_arg2)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x128) origin2]
  obtain ⟨e0, e1, e2, e3, e4, e5⟩ := index0 t
  funext j
  refine (Payload.stored0_apply (iblk0 V c 0 t) (iblk0 V c 1 t) j).trans ?_
  refine Eq.trans ?_ (MatProduct.prod_apply 100000 128 128 (V c main_arg0) (V c main_arg2) (((cfg0.win 2).blk t).view.emb j)).symm
  refine Finset.sum_congr rfl fun k _ => ?_
  have hj0 : (j 0).val < 5000 := (j 0).isLt
  have hj1 : (j 1).val < 128 := (j 1).isLt
  have hk : k.val < 128 := k.isLt
  have hX : ((cfg0.win 0).blk t).view.emb (ValueIdx.ix2 (⟨(j 0).val, (j 0).isLt⟩ : Fin 5000) k)
      = ValueIdx.ix2 (⟨((((cfg0.win 2).blk t).view.emb j) 0).val, ((((cfg0.win 2).blk t).view.emb j) 0).isLt⟩ : Fin 100000) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hW : ((cfg0.win 1).blk t).view.emb (ValueIdx.ix2 k (⟨(j 1).val, (j 1).isLt⟩ : Fin 128))
      = ValueIdx.ix2 k (⟨((((cfg0.win 2).blk t).view.emb j) 1).val, ((((cfg0.win 2).blk t).view.emb j) 1).isLt⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) hX) (congrArg (V c main_arg2) hW)

/-- An index of the output array is in point `t`'s block iff its row is among rows `5000·t … 5000·t + 4999`. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output is in the block of the point its row falls in: point `row / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨e0, e1, e2, e3, e4, e5⟩ := index0 ⟨(i 0).val / 5000, by rw [hN]; omega⟩
  rw [mem_block0]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the region its output array holds the product of the two arrays it found. -/
theorem product0 (c : Dev nD) :
    (dat0 V c).arrAt 2 cfg0.N = MatProduct.prod 100000 128 128 (V c main_arg0) (V c main_arg2) :=
  (dat0 V c).arrAt_eq_of_cover 2 _ (fun t _ => flushed0 V c t) (cover0)

/-! ## Region 1: `main_v48 = main_v47 · main_arg4`

Grid point `t` (of 20) holds rows `5000·t … 5000·t + 4999` of the left array and of the output, and the whole weight
matrix. -/

/-- The printed index maps, decided over the 20 grid points: the row-block windows are at block `t` of the rows and
    block 0 of the columns; the weights' window is always block (0, 0). -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two arrays as the region finds them. -/
theorem flushed1 (c : Dev nD) (t : Fin cfg1.N) :
    (dat1 V c).flushed 2 t
      = ((cfg1.win 2).blk t).view.read (Elt Ideal) (MatProduct.prod 100000 128 64 (V c main_v47) (V c main_arg4)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S128x64) origin2]
  obtain ⟨e0, e1, e2, e3, e4, e5⟩ := index1 t
  funext j
  refine (Payload.stored1_apply (iblk1 V c 0 t) (iblk1 V c 1 t) j).trans ?_
  refine Eq.trans ?_ (MatProduct.prod_apply 100000 128 64 (V c main_v47) (V c main_arg4) (((cfg1.win 2).blk t).view.emb j)).symm
  refine Finset.sum_congr rfl fun k _ => ?_
  have hj0 : (j 0).val < 5000 := (j 0).isLt
  have hj1 : (j 1).val < 64 := (j 1).isLt
  have hk : k.val < 128 := k.isLt
  have hX : ((cfg1.win 0).blk t).view.emb (ValueIdx.ix2 (⟨(j 0).val, (j 0).isLt⟩ : Fin 5000) k)
      = ValueIdx.ix2 (⟨((((cfg1.win 2).blk t).view.emb j) 0).val, ((((cfg1.win 2).blk t).view.emb j) 0).isLt⟩ : Fin 100000) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hW : ((cfg1.win 1).blk t).view.emb (ValueIdx.ix2 k (⟨(j 1).val, (j 1).isLt⟩ : Fin 64))
      = ValueIdx.ix2 k (⟨((((cfg1.win 2).blk t).view.emb j) 1).val, ((((cfg1.win 2).blk t).view.emb j) 1).isLt⟩ : Fin 64) := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  exact congrArg₂ (fun a b : EReal => a * b) (congrArg (V c main_v47) hX) (congrArg (V c main_arg4) hW)

/-- An index of the output array is in point `t`'s block iff its row is among rows `5000·t … 5000·t + 4999`. -/
theorem mem_block1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v48).slice (win1_2.rect t)).set ↔ _
  rw [View.set_slice_whole, Rect.mem_set_unit]
  exact Iff.rfl

/-- Every index of the output is in the block of the point its row falls in: point `row / 5000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  obtain ⟨e0, e1, e2, e3, e4, e5⟩ := index1 ⟨(i 0).val / 5000, by rw [hN]; omega⟩
  rw [mem_block1]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- After the region its output array holds the product of the two arrays it found. -/
theorem product1 (c : Dev nD) :
    (dat1 V c).arrAt 2 cfg1.N = MatProduct.prod 100000 128 64 (V c main_v47) (V c main_arg4) :=
  (dat1 V c).arrAt_eq_of_cover 2 _ (fun t _ => flushed1 V c t) (cover1)

end Cert.KernelIdeal.Blocks

end
-- ==== Proof.RefProducts.lean ====
/-
  The reference's two dense layers are plain matrix products.

  jnp's `x @ W` is one `dot_general` contracting the 128 columns of the left array with the 128 rows of the weights; at an
  output index (r, c) it is the sum over k of left(r, k) · weights(k, c) — the same function of the two arrays that the
  kernel's row-blocked regions compute.
-/
import proofs.«118363_j28613072126261_1_alg».proof.Proof.RefReadPatched
import proofs.«118363_j28613072126261_1_alg».proof.Proof.MatProduct

noncomputable section

namespace Cert.ReferenceIdeal.Products

open Cert.ReferenceIdeal Cert.ReferenceIdeal.Read Idealize.ShloMosaic

/-- The first layer's `x @ W1` is the product of the two argument arrays. -/
theorem dense1 (x0 : (⟨S100000x128, .f32⟩ : BufTy).Contents (Elt Ideal)) (x2 : (⟨S128x128, .f32⟩ : BufTy).Contents (Elt Ideal)) :
    val_main_v30 (F := Ideal) x0 x2 = MatProduct.prod 100000 128 128 x0 x2 := by
  funext i
  refine (val_main_v30_apply x0 x2 i).trans ?_
  refine Eq.trans ?_ (MatProduct.prod_apply 100000 128 128 x0 x2 i).symm
  refine Finset.sum_congr rfl fun k _ => ?_
  have el : lidx_main_v30 i k = ValueIdx.ix2 (⟨(i 0).val, (i 0).isLt⟩ : Fin 100000) k :=
    funext fun a => Fin.ext (by match a with | ⟨0, _⟩ => rfl | ⟨1, _⟩ => rfl)
  have er : ridx_main_v30 i k = ValueIdx.ix2 k (⟨(i 1).val, (i 1).isLt⟩ : Fin 128) :=
    funext fun a => Fin.ext (by match a with | ⟨0, _⟩ => rfl | ⟨1, _⟩ => rfl)
  rw [el, er]

/-- The second layer's `h @ W2` is the product of the first layer's output with the second weights. -/
theorem dense2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v71 (F := Ideal) x0 x1 x2 x3 x4 = MatProduct.prod 100000 128 64 (val_main_v47 (F := Ideal) x0 x1 x2 x3) x4 := by
  funext i
  refine (val_main_v71_apply x0 x1 x2 x3 x4 i).trans ?_
  refine Eq.trans ?_ (MatProduct.prod_apply 100000 128 64 (val_main_v47 (F := Ideal) x0 x1 x2 x3) x4 i).symm
  refine Finset.sum_congr rfl fun k _ => ?_
  have el : lidx_main_v71 i k = ValueIdx.ix2 (⟨(i 0).val, (i 0).isLt⟩ : Fin 100000) k :=
    funext fun a => Fin.ext (by match a with | ⟨0, _⟩ => rfl | ⟨1, _⟩ => rfl)
  have er : ridx_main_v71 i k = ValueIdx.ix2 k (⟨(i 1).val, (i 1).isLt⟩ : Fin 64) :=
    funext fun a => Fin.ext (by match a with | ⟨0, _⟩ => rfl | ⟨1, _⟩ => rfl)
  rw [el, er]

end Cert.ReferenceIdeal.Products

end
-- ==== Proof.FoldEdges.lean ====
/-
  The first stretch of host operations, read over an arbitrary valuation `U` of the buffers: the edge list with its self
  loops (source and destination node of every edge), the in-degree of every node, its comparison with zero and its inverse
  square root — each the reference's stage of the same name, as a function of the edge-list argument.
  A buffer the stretch does not write keeps what `U` holds.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v29 val_main_v30
  val_main_v47 val_main_v70 val_main_v71 val_main_v87)

/-! ## The first stretch: the edge list with self loops, the in-degrees, their comparison with zero and inverse square root -/

theorem first_v3 (U : Valuation τ sig (Elt Ideal)) (x1 : (⟨Cert.ReferenceIdeal.S2x1600000, .i32⟩ : BufTy).Contents (Elt Ideal)) (h1 : U (Proc.devRef .tc main_arg1) = x1) :
    StableHlo.after hostOps0 U (Proc.devRef .tc main_v3) = val_main_v3 (F := Ideal) x1 := by
  after_results
  rw [h1]
  rfl
theorem first_v6 (U : Valuation τ sig (Elt Ideal)) (x1 : (⟨Cert.ReferenceIdeal.S2x1600000, .i32⟩ : BufTy).Contents (Elt Ideal)) (h1 : U (Proc.devRef .tc main_arg1) = x1) :
    StableHlo.after hostOps0 U (Proc.devRef .tc main_v6) = val_main_v6 (F := Ideal) x1 := by
  after_results
  rw [h1]
  rfl
theorem first_v12 (U : Valuation τ sig (Elt Ideal)) (x1 : (⟨Cert.ReferenceIdeal.S2x1600000, .i32⟩ : BufTy).Contents (Elt Ideal)) (h1 : U (Proc.devRef .tc main_arg1) = x1) :
    StableHlo.after hostOps0 U (Proc.devRef .tc main_v12) = val_main_v12 (F := Ideal) x1 := by
  after_results
  rw [h1]
  rfl
theorem first_v13 (U : Valuation τ sig (Elt Ideal)) (x1 : (⟨Cert.ReferenceIdeal.S2x1600000, .i32⟩ : BufTy).Contents (Elt Ideal)) (h1 : U (Proc.devRef .tc main_arg1) = x1) :
    StableHlo.after hostOps0 U (Proc.devRef .tc main_v13) = val_main_v13 (F := Ideal) x1 := by
  after_results
  rw [h1]
  rfl
theorem first_cst_2 (U : Valuation τ sig (Elt Ideal)) : StableHlo.after hostOps0 U (Proc.devRef .tc main_cst_2) = val_main_cst_2 (F := Ideal) := by
  after_results <;> rfl
theorem first_keep_arg0 (U : Valuation τ sig (Elt Ideal)) : StableHlo.after hostOps0 U (Proc.devRef .tc main_arg0) = U (Proc.devRef .tc main_arg0) := by
  after_results <;> rfl
theorem first_keep_arg2 (U : Valuation τ sig (Elt Ideal)) : StableHlo.after hostOps0 U (Proc.devRef .tc main_arg2) = U (Proc.devRef .tc main_arg2) := by
  after_results <;> rfl
theorem first_keep_arg3 (U : Valuation τ sig (Elt Ideal)) : StableHlo.after hostOps0 U (Proc.devRef .tc main_arg3) = U (Proc.devRef .tc main_arg3) := by
  after_results <;> rfl
theorem first_keep_arg4 (U : Valuation τ sig (Elt Ideal)) : StableHlo.after hostOps0 U (Proc.devRef .tc main_arg4) = U (Proc.devRef .tc main_arg4) := by
  after_results <;> rfl
theorem first_keep_arg5 (U : Valuation τ sig (Elt Ideal)) : StableHlo.after hostOps0 U (Proc.devRef .tc main_arg5) = U (Proc.devRef .tc main_arg5) := by
  after_results <;> rfl

end Cert.KernelIdeal.Fold

end
-- ==== Proof.FoldWhere.lean ====
/-
  The inlined `where(deg > 0, rsqrt(deg), 0)`, read over an arbitrary valuation `U` of the buffers: from the degree
  comparison and the inverse square roots it selects `dinv`, the reference's stage of the same name.
  A buffer these three operations do not write keeps what `U` holds. Nothing here depends on what a float is, so it is
  stated for every float instance.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v14 val_main_v29 val_main_v30 val_main_v46
  val_main_v47 val_main_v70 val_main_v71 val_main_v87)

theorem where_of {F : FTy → Type} [FloatOps F] (U : Valuation τ sig (Elt F)) (x1 : (⟨Cert.ReferenceIdeal.S2x1600000, .i32⟩ : BufTy).Contents (Elt F))
    (h12 : U (Proc.devRef .tc main_v12) = val_main_v12 (F := F) x1) (h13 : U (Proc.devRef .tc main_v13) = val_main_v13 (F := F) x1)
    (hc : U (Proc.devRef .tc main_cst_2) = val_main_cst_2 (F := F)) :
    StableHlo.after hostOps0_1 U (Proc.devRef .tc main_v14) = val_main_v14 (F := F) x1 := by
  after_results
  rw [h12, h13, hc]
  rfl
theorem where_keep_v3 {F : FTy → Type} [FloatOps F] (U : Valuation τ sig (Elt F)) : StableHlo.after hostOps0_1 U (Proc.devRef .tc main_v3) = U (Proc.devRef .tc main_v3) := by
  after_results <;> rfl
theorem where_keep_v6 {F : FTy → Type} [FloatOps F] (U : Valuation τ sig (Elt F)) : StableHlo.after hostOps0_1 U (Proc.devRef .tc main_v6) = U (Proc.devRef .tc main_v6) := by
  after_results <;> rfl
theorem where_keep_arg0 {F : FTy → Type} [FloatOps F] (U : Valuation τ sig (Elt F)) : StableHlo.after hostOps0_1 U (Proc.devRef .tc main_arg0) = U (Proc.devRef .tc main_arg0) := by
  after_results <;> rfl
theorem where_keep_arg2 {F : FTy → Type} [FloatOps F] (U : Valuation τ sig (Elt F)) : StableHlo.after hostOps0_1 U (Proc.devRef .tc main_arg2) = U (Proc.devRef .tc main_arg2) := by
  after_results <;> rfl
theorem where_keep_arg3 {F : FTy → Type} [FloatOps F] (U : Valuation τ sig (Elt F)) : StableHlo.after hostOps0_1 U (Proc.devRef .tc main_arg3) = U (Proc.devRef .tc main_arg3) := by
  after_results <;> rfl
theorem where_keep_arg4 {F : FTy → Type} [FloatOps F] (U : Valuation τ sig (Elt F)) : StableHlo.after hostOps0_1 U (Proc.devRef .tc main_arg4) = U (Proc.devRef .tc main_arg4) := by
  after_results <;> rfl
theorem where_keep_arg5 {F : FTy → Type} [FloatOps F] (U : Valuation τ sig (Elt F)) : StableHlo.after hostOps0_1 U (Proc.devRef .tc main_arg5) = U (Proc.devRef .tc main_arg5) := by
  after_results <;> rfl

end Cert.KernelIdeal.Fold

end
-- ==== Proof.FoldNorm.lean ====
/-
  The second long stretch of host operations, read over an arbitrary valuation `U`: from the edge list and `dinv` it
  computes every edge's normalisation `dinv[src] · dinv[dst]` (each index wrapped as jnp wraps a negative one), the
  reference's stage of the same name. A buffer the stretch does not write keeps what `U` holds.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v14 val_main_v29 val_main_v30 val_main_v46
  val_main_v47 val_main_v70 val_main_v71 val_main_v87)

theorem norm_of (U : Valuation τ sig (Elt Ideal)) (x1 : (⟨Cert.ReferenceIdeal.S2x1600000, .i32⟩ : BufTy).Contents (Elt Ideal))
    (h3 : U (Proc.devRef .tc main_v3) = val_main_v3 (F := Ideal) x1) (h6 : U (Proc.devRef .tc main_v6) = val_main_v6 (F := Ideal) x1)
    (h14 : U (Proc.devRef .tc main_v14) = val_main_v14 (F := Ideal) x1) :
    StableHlo.after hostOps0_2 U (Proc.devRef .tc main_v29) = val_main_v29 (F := Ideal) x1 := by
  after_results_simp
  rw [h3, h6, h14]
  rfl
theorem norm_keep_v3 (U : Valuation τ sig (Elt Ideal)) : StableHlo.after hostOps0_2 U (Proc.devRef .tc main_v3) = U (Proc.devRef .tc main_v3) := by
  after_results <;> rfl
theorem norm_keep_v6 (U : Valuation τ sig (Elt Ideal)) : StableHlo.after hostOps0_2 U (Proc.devRef .tc main_v6) = U (Proc.devRef .tc main_v6) := by
  after_results <;> rfl
theorem norm_keep_arg0 (U : Valuation τ sig (Elt Ideal)) : StableHlo.after hostOps0_2 U (Proc.devRef .tc main_arg0) = U (Proc.devRef .tc main_arg0) := by
  after_results <;> rfl
theorem norm_keep_arg2 (U : Valuation τ sig (Elt Ideal)) : StableHlo.after hostOps0_2 U (Proc.devRef .tc main_arg2) = U (Proc.devRef .tc main_arg2) := by
  after_results <;> rfl
theorem norm_keep_arg3 (U : Valuation τ sig (Elt Ideal)) : StableHlo.after hostOps0_2 U (Proc.devRef .tc main_arg3) = U (Proc.devRef .tc main_arg3) := by
  after_results <;> rfl
theorem norm_keep_arg4 (U : Valuation τ sig (Elt Ideal)) : StableHlo.after hostOps0_2 U (Proc.devRef .tc main_arg4) = U (Proc.devRef .tc main_arg4) := by
  after_results <;> rfl
theorem norm_keep_arg5 (U : Valuation τ sig (Elt Ideal)) : StableHlo.after hostOps0_2 U (Proc.devRef .tc main_arg5) = U (Proc.devRef .tc main_arg5) := by
  after_results <;> rfl

end Cert.KernelIdeal.Fold

end
-- ==== Proof.FoldLayer1.lean ====
/-
  The first layer after its dense product, read over an arbitrary valuation `U`: gather each edge's source row, scale it
  by the edge's normalisation, scatter-add by destination node and add the bias — the reference's stage before the
  maximum with zero. A buffer the stretch does not write keeps what `U` holds.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v14 val_main_v29 val_main_v30 val_main_v46
  val_main_v47 val_main_v70 val_main_v71 val_main_v87)

theorem layer1_of (U : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal))
    (h30 : U (Proc.devRef .tc main_v30) = val_main_v30 (F := Ideal) x0 x2)
    (h3 : U (Proc.devRef .tc main_v3) = val_main_v3 (F := Ideal) x1) (h6 : U (Proc.devRef .tc main_v6) = val_main_v6 (F := Ideal) x1)
    (h29 : U (Proc.devRef .tc main_v29) = val_main_v29 (F := Ideal) x1) (ha : U (Proc.devRef .tc main_arg3) = x3) :
    StableHlo.after hostOps1 U (Proc.devRef .tc main_v46) = val_main_v46 (F := Ideal) x0 x1 x2 x3 := by
  after_results_simp
  rw [h30, h3, h6, h29, ha]
  rfl
theorem layer1_keep_v3 (U : Valuation τ sig (Elt Ideal)) : StableHlo.after hostOps1 U (Proc.devRef .tc main_v3) = U (Proc.devRef .tc main_v3) := by
  after_results <;> rfl
theorem layer1_keep_v6 (U : Valuation τ sig (Elt Ideal)) : StableHlo.after hostOps1 U (Proc.devRef .tc main_v6) = U (Proc.devRef .tc main_v6) := by
  after_results <;> rfl
theorem layer1_keep_v29 (U : Valuation τ sig (Elt Ideal)) : StableHlo.after hostOps1 U (Proc.devRef .tc main_v29) = U (Proc.devRef .tc main_v29) := by
  after_results <;> rfl
theorem layer1_keep_arg4 (U : Valuation τ sig (Elt Ideal)) : StableHlo.after hostOps1 U (Proc.devRef .tc main_arg4) = U (Proc.devRef .tc main_arg4) := by
  after_results <;> rfl
theorem layer1_keep_arg5 (U : Valuation τ sig (Elt Ideal)) : StableHlo.after hostOps1 U (Proc.devRef .tc main_arg5) = U (Proc.devRef .tc main_arg5) := by
  after_results <;> rfl

end Cert.KernelIdeal.Fold

end
-- ==== Proof.FoldRelu.lean ====
/-
  The inlined `relu`, read over an arbitrary valuation `U`: the maximum of the first layer's sum with zero, the
  reference's first-layer output. A buffer these three operations do not write keeps what `U` holds. Nothing here depends
  on what a float is, so it is stated for every float instance.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v14 val_main_v29 val_main_v30 val_main_v46
  val_main_v47 val_main_v70 val_main_v71 val_main_v87)

theorem relu_of {F : FTy → Type} [FloatOps F] (U : Valuation τ sig (Elt F)) (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F)) (x3 : (⟨Cert.ReferenceIdeal.S128, .f32⟩ : BufTy).Contents (Elt F))
    (h46 : U (Proc.devRef .tc main_v46) = val_main_v46 (F := F) x0 x1 x2 x3) :
    StableHlo.after hostOps1_1 U (Proc.devRef .tc main_v47) = val_main_v47 (F := F) x0 x1 x2 x3 := by
  after_results
  rw [h46]
  rfl
theorem relu_keep_v3 {F : FTy → Type} [FloatOps F] (U : Valuation τ sig (Elt F)) : StableHlo.after hostOps1_1 U (Proc.devRef .tc main_v3) = U (Proc.devRef .tc main_v3) := by
  after_results <;> rfl
theorem relu_keep_v6 {F : FTy → Type} [FloatOps F] (U : Valuation τ sig (Elt F)) : StableHlo.after hostOps1_1 U (Proc.devRef .tc main_v6) = U (Proc.devRef .tc main_v6) := by
  after_results <;> rfl
theorem relu_keep_v29 {F : FTy → Type} [FloatOps F] (U : Valuation τ sig (Elt F)) : StableHlo.after hostOps1_1 U (Proc.devRef .tc main_v29) = U (Proc.devRef .tc main_v29) := by
  after_results <;> rfl
theorem relu_keep_arg4 {F : FTy → Type} [FloatOps F] (U : Valuation τ sig (Elt F)) : StableHlo.after hostOps1_1 U (Proc.devRef .tc main_arg4) = U (Proc.devRef .tc main_arg4) := by
  after_results <;> rfl
theorem relu_keep_arg5 {F : FTy → Type} [FloatOps F] (U : Valuation τ sig (Elt F)) : StableHlo.after hostOps1_1 U (Proc.devRef .tc main_arg5) = U (Proc.devRef .tc main_arg5) := by
  after_results <;> rfl

end Cert.KernelIdeal.Fold

end
-- ==== Proof.FoldLayer2.lean ====
/-
  The last stretch of host operations, read over an arbitrary valuation `U`: from the second dense product it gathers,
  scales, scatter-adds and adds the bias — the reference's final stage.
-/
import proofs.«118363_j28613072126261_1_alg».proof.Proof.Gen.KernelIdeal.Frame
import proofs.«118363_j28613072126261_1_alg».proof.Proof.RefReadPatched

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v29 val_main_v30
  val_main_v47 val_main_v70 val_main_v71 val_main_v87)

/-! ## The last stretch: the second layer after its dense product — gather, scale, scatter-add, bias

The reference computes the edges' normalisation a second time for this layer; it is the same function of the edge list. -/

theorem norm_again (x1 : (⟨Cert.ReferenceIdeal.S2x1600000, .i32⟩ : BufTy).Contents (Elt Ideal)) : val_main_v29 (F := Ideal) x1 = val_main_v70 (F := Ideal) x1 := rfl

theorem layer2_of (U : Valuation τ sig (Elt Ideal)) (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x64, .f32⟩ : BufTy).Contents (Elt Ideal)) (x5 : (⟨Cert.ReferenceIdeal.S64, .f32⟩ : BufTy).Contents (Elt Ideal))
    (h48 : U (Proc.devRef .tc main_v48) = val_main_v71 (F := Ideal) x0 x1 x2 x3 x4)
    (h3 : U (Proc.devRef .tc main_v3) = val_main_v3 (F := Ideal) x1) (h6 : U (Proc.devRef .tc main_v6) = val_main_v6 (F := Ideal) x1)
    (h29 : U (Proc.devRef .tc main_v29) = val_main_v70 (F := Ideal) x1) (ha : U (Proc.devRef .tc main_arg5) = x5) :
    StableHlo.after hostOps2 U (Proc.devRef .tc main_v64) = val_main_v87 (F := Ideal) x0 x1 x2 x3 x4 x5 := by
  after_results_simp
  rw [h48, h3, h6, h29, ha]
  rfl

end Cert.KernelIdeal.Fold

end
-- ==== Proof.Fold.lean ====
/-
  The host operations around the two matrix-product regions, read through the run's boundaries.

  Both programs apply the same host operations to the same arguments: the edge list with its self loops (source and
  destination node of every edge), the degree normalisation of every edge, then per layer a row gather by source node, a
  scaling by the edge's normalisation, a scatter-add by destination node, the bias, and after the first layer a maximum
  with zero. The only difference is how each dense layer is computed, and the two regions' arrays have been shown to be
  the same plain products the reference contracts in one step. So each stretch of host operations, applied to buffers
  that already hold the reference's stages, leaves the reference's next stages; carried through the eight segments this
  gives the result buffer at the reference's final stage.

  Each stretch is read over an arbitrary valuation `U` of the buffers, from what `U` holds at the buffers the stretch
  reads; a buffer the stretch does not write keeps what `U` holds.
-/
import proofs.«118363_j28613072126261_1_alg».proof.Proof.Gen.KernelIdeal.Frame
import proofs.«118363_j28613072126261_1_alg».proof.Proof.RefReadPatched
import proofs.«118363_j28613072126261_1_alg».proof.Proof.BlocksToArray
import proofs.«118363_j28613072126261_1_alg».proof.Proof.RefProducts
import proofs.«118363_j28613072126261_1_alg».proof.Proof.FoldEdges
import proofs.«118363_j28613072126261_1_alg».proof.Proof.FoldWhere
import proofs.«118363_j28613072126261_1_alg».proof.Proof.FoldNorm
import proofs.«118363_j28613072126261_1_alg».proof.Proof.FoldLayer1
import proofs.«118363_j28613072126261_1_alg».proof.Proof.FoldRelu
import proofs.«118363_j28613072126261_1_alg».proof.Proof.FoldLayer2

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read (val_main_v3 val_main_v6 val_main_v12 val_main_v13 val_main_cst_2 val_main_v14 val_main_v29 val_main_v30 val_main_v46
  val_main_v47 val_main_v70 val_main_v71 val_main_v87)

/-! ## Through the run's eight segments

`W0` is the launch memory; `W1`, `W2`, `W3` the contents after the three stretches before the first region; `W4` after
that region; `W5`, `W6` after the next two stretches; `W7` after the second region; `W8` at the return. -/

variable (m : (ℓ : Loc nD τ sig) → Buf (Elt Ideal) ℓ) (ρ : Dev nD → PrngReg) (c : Dev nD)

theorem W1_v3 : W1 m ρ c (Proc.devRef .tc main_v3) = val_main_v3 (F := Ideal) (m ((c : Thread nD τ).loc main_arg1)) :=
  first_v3 (W0 m ρ c) _ rfl
theorem W1_v6 : W1 m ρ c (Proc.devRef .tc main_v6) = val_main_v6 (F := Ideal) (m ((c : Thread nD τ).loc main_arg1)) :=
  first_v6 (W0 m ρ c) _ rfl
theorem W1_v12 : W1 m ρ c (Proc.devRef .tc main_v12) = val_main_v12 (F := Ideal) (m ((c : Thread nD τ).loc main_arg1)) :=
  first_v12 (W0 m ρ c) _ rfl
theorem W1_v13 : W1 m ρ c (Proc.devRef .tc main_v13) = val_main_v13 (F := Ideal) (m ((c : Thread nD τ).loc main_arg1)) :=
  first_v13 (W0 m ρ c) _ rfl
theorem W1_cst_2 : W1 m ρ c (Proc.devRef .tc main_cst_2) = val_main_cst_2 (F := Ideal) := first_cst_2 (W0 m ρ c)
theorem W1_arg0 : W1 m ρ c (Proc.devRef .tc main_arg0) = (m ((c : Thread nD τ).loc main_arg0)) := (first_keep_arg0 (W0 m ρ c)).trans rfl
theorem W1_arg2 : W1 m ρ c (Proc.devRef .tc main_arg2) = (m ((c : Thread nD τ).loc main_arg2)) := (first_keep_arg2 (W0 m ρ c)).trans rfl
theorem W1_arg3 : W1 m ρ c (Proc.devRef .tc main_arg3) = (m ((c : Thread nD τ).loc main_arg3)) := (first_keep_arg3 (W0 m ρ c)).trans rfl
theorem W1_arg4 : W1 m ρ c (Proc.devRef .tc main_arg4) = (m ((c : Thread nD τ).loc main_arg4)) := (first_keep_arg4 (W0 m ρ c)).trans rfl
theorem W1_arg5 : W1 m ρ c (Proc.devRef .tc main_arg5) = (m ((c : Thread nD τ).loc main_arg5)) := (first_keep_arg5 (W0 m ρ c)).trans rfl

theorem W2_v14 : W2 m ρ c (Proc.devRef .tc main_v14) = val_main_v14 (F := Ideal) (m ((c : Thread nD τ).loc main_arg1)) :=
  where_of (F := Ideal) (W1 m ρ c) _ (W1_v12 m ρ c) (W1_v13 m ρ c) (W1_cst_2 m ρ c)
theorem W2_v3 : W2 m ρ c (Proc.devRef .tc main_v3) = val_main_v3 (F := Ideal) (m ((c : Thread nD τ).loc main_arg1)) := (where_keep_v3 (F := Ideal) (W1 m ρ c)).trans (W1_v3 m ρ c)
theorem W2_v6 : W2 m ρ c (Proc.devRef .tc main_v6) = val_main_v6 (F := Ideal) (m ((c : Thread nD τ).loc main_arg1)) := (where_keep_v6 (F := Ideal) (W1 m ρ c)).trans (W1_v6 m ρ c)
theorem W2_arg0 : W2 m ρ c (Proc.devRef .tc main_arg0) = (m ((c : Thread nD τ).loc main_arg0)) := (where_keep_arg0 (F := Ideal) (W1 m ρ c)).trans (W1_arg0 m ρ c)
theorem W2_arg2 : W2 m ρ c (Proc.devRef .tc main_arg2) = (m ((c : Thread nD τ).loc main_arg2)) := (where_keep_arg2 (F := Ideal) (W1 m ρ c)).trans (W1_arg2 m ρ c)
theorem W2_arg3 : W2 m ρ c (Proc.devRef .tc main_arg3) = (m ((c : Thread nD τ).loc main_arg3)) := (where_keep_arg3 (F := Ideal) (W1 m ρ c)).trans (W1_arg3 m ρ c)
theorem W2_arg4 : W2 m ρ c (Proc.devRef .tc main_arg4) = (m ((c : Thread nD τ).loc main_arg4)) := (where_keep_arg4 (F := Ideal) (W1 m ρ c)).trans (W1_arg4 m ρ c)
theorem W2_arg5 : W2 m ρ c (Proc.devRef .tc main_arg5) = (m ((c : Thread nD τ).loc main_arg5)) := (where_keep_arg5 (F := Ideal) (W1 m ρ c)).trans (W1_arg5 m ρ c)

theorem W3_v29 : W3 m ρ c (Proc.devRef .tc main_v29) = val_main_v29 (F := Ideal) (m ((c : Thread nD τ).loc main_arg1)) :=
  norm_of (W2 m ρ c) _ (W2_v3 m ρ c) (W2_v6 m ρ c) (W2_v14 m ρ c)
theorem W3_v3 : W3 m ρ c (Proc.devRef .tc main_v3) = val_main_v3 (F := Ideal) (m ((c : Thread nD τ).loc main_arg1)) := (norm_keep_v3 (W2 m ρ c)).trans (W2_v3 m ρ c)
theorem W3_v6 : W3 m ρ c (Proc.devRef .tc main_v6) = val_main_v6 (F := Ideal) (m ((c : Thread nD τ).loc main_arg1)) := (norm_keep_v6 (W2 m ρ c)).trans (W2_v6 m ρ c)
theorem W3_arg0 : W3 m ρ c (Proc.devRef .tc main_arg0) = (m ((c : Thread nD τ).loc main_arg0)) := (norm_keep_arg0 (W2 m ρ c)).trans (W2_arg0 m ρ c)
theorem W3_arg2 : W3 m ρ c (Proc.devRef .tc main_arg2) = (m ((c : Thread nD τ).loc main_arg2)) := (norm_keep_arg2 (W2 m ρ c)).trans (W2_arg2 m ρ c)
theorem W3_arg3 : W3 m ρ c (Proc.devRef .tc main_arg3) = (m ((c : Thread nD τ).loc main_arg3)) := (norm_keep_arg3 (W2 m ρ c)).trans (W2_arg3 m ρ c)
theorem W3_arg4 : W3 m ρ c (Proc.devRef .tc main_arg4) = (m ((c : Thread nD τ).loc main_arg4)) := (norm_keep_arg4 (W2 m ρ c)).trans (W2_arg4 m ρ c)
theorem W3_arg5 : W3 m ρ c (Proc.devRef .tc main_arg5) = (m ((c : Thread nD τ).loc main_arg5)) := (norm_keep_arg5 (W2 m ρ c)).trans (W2_arg5 m ρ c)

/-- After the first region its output array is the reference's first dense product. -/
theorem W4_v30 : W4 m ρ c (Proc.devRef .tc main_v30) = val_main_v30 (F := Ideal) (m ((c : Thread nD τ).loc main_arg0)) (m ((c : Thread nD τ).loc main_arg2)) :=
  (W4_arr m ρ c 2).trans ((Blocks.product0 (V3 m ρ) c).trans
    ((congrArg₂ (MatProduct.prod 100000 128 128) (W3_arg0 m ρ c) (W3_arg2 m ρ c)).trans (Cert.ReferenceIdeal.Products.dense1 _ _).symm))
theorem W4_v3 : W4 m ρ c (Proc.devRef .tc main_v3) = val_main_v3 (F := Ideal) (m ((c : Thread nD τ).loc main_arg1)) := (W4_of_ne m ρ c main_v3 (by decide)).trans (W3_v3 m ρ c)
theorem W4_v6 : W4 m ρ c (Proc.devRef .tc main_v6) = val_main_v6 (F := Ideal) (m ((c : Thread nD τ).loc main_arg1)) := (W4_of_ne m ρ c main_v6 (by decide)).trans (W3_v6 m ρ c)
theorem W4_v29 : W4 m ρ c (Proc.devRef .tc main_v29) = val_main_v29 (F := Ideal) (m ((c : Thread nD τ).loc main_arg1)) := (W4_of_ne m ρ c main_v29 (by decide)).trans (W3_v29 m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

theorem W5_v46 : W5 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) :=
  layer1_of (W4 m ρ c) _ _ _ _ (W4_v30 m ρ c) (W4_v3 m ρ c) (W4_v6 m ρ c) (W4_v29 m ρ c) (W4_arg3 m ρ c)
theorem W5_v3 : W5 m ρ c (Proc.devRef .tc main_v3) = val_main_v3 (F := Ideal) (m ((c : Thread nD τ).loc main_arg1)) := (layer1_keep_v3 (W4 m ρ c)).trans (W4_v3 m ρ c)
theorem W5_v6 : W5 m ρ c (Proc.devRef .tc main_v6) = val_main_v6 (F := Ideal) (m ((c : Thread nD τ).loc main_arg1)) := (layer1_keep_v6 (W4 m ρ c)).trans (W4_v6 m ρ c)
theorem W5_v29 : W5 m ρ c (Proc.devRef .tc main_v29) = val_main_v29 (F := Ideal) (m ((c : Thread nD τ).loc main_arg1)) := (layer1_keep_v29 (W4 m ρ c)).trans (W4_v29 m ρ c)
theorem W5_arg4 : W5 m ρ c (Proc.devRef .tc main_arg4) = (m ((c : Thread nD τ).loc main_arg4)) := (layer1_keep_arg4 (W4 m ρ c)).trans (W4_arg4 m ρ c)
theorem W5_arg5 : W5 m ρ c (Proc.devRef .tc main_arg5) = (m ((c : Thread nD τ).loc main_arg5)) := (layer1_keep_arg5 (W4 m ρ c)).trans (W4_arg5 m ρ c)

theorem W6_v47 : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) :=
  relu_of (F := Ideal) (W5 m ρ c) _ _ _ _ (W5_v46 m ρ c)
theorem W6_v3 : W6 m ρ c (Proc.devRef .tc main_v3) = val_main_v3 (F := Ideal) (m ((c : Thread nD τ).loc main_arg1)) := (relu_keep_v3 (F := Ideal) (W5 m ρ c)).trans (W5_v3 m ρ c)
theorem W6_v6 : W6 m ρ c (Proc.devRef .tc main_v6) = val_main_v6 (F := Ideal) (m ((c : Thread nD τ).loc main_arg1)) := (relu_keep_v6 (F := Ideal) (W5 m ρ c)).trans (W5_v6 m ρ c)
theorem W6_v29 : W6 m ρ c (Proc.devRef .tc main_v29) = val_main_v29 (F := Ideal) (m ((c : Thread nD τ).loc main_arg1)) := (relu_keep_v29 (F := Ideal) (W5 m ρ c)).trans (W5_v29 m ρ c)
theorem W6_arg4 : W6 m ρ c (Proc.devRef .tc main_arg4) = (m ((c : Thread nD τ).loc main_arg4)) := (relu_keep_arg4 (F := Ideal) (W5 m ρ c)).trans (W5_arg4 m ρ c)
theorem W6_arg5 : W6 m ρ c (Proc.devRef .tc main_arg5) = (m ((c : Thread nD τ).loc main_arg5)) := (relu_keep_arg5 (F := Ideal) (W5 m ρ c)).trans (W5_arg5 m ρ c)

/-- After the second region its output array is the reference's second dense product. -/
theorem W7_v48 : W7 m ρ c (Proc.devRef .tc main_v48) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Blocks.product1 (V6 m ρ) c).trans
    ((congrArg₂ (MatProduct.prod 100000 128 64) (W6_v47 m ρ c) (W6_arg4 m ρ c)).trans (Cert.ReferenceIdeal.Products.dense2 _ _ _ _ _).symm))
theorem W7_v3 : W7 m ρ c (Proc.devRef .tc main_v3) = val_main_v3 (F := Ideal) (m ((c : Thread nD τ).loc main_arg1)) := (W7_of_ne m ρ c main_v3 (by decide)).trans (W6_v3 m ρ c)
theorem W7_v6 : W7 m ρ c (Proc.devRef .tc main_v6) = val_main_v6 (F := Ideal) (m ((c : Thread nD τ).loc main_arg1)) := (W7_of_ne m ρ c main_v6 (by decide)).trans (W6_v6 m ρ c)
theorem W7_v29 : W7 m ρ c (Proc.devRef .tc main_v29) = val_main_v29 (F := Ideal) (m ((c : Thread nD τ).loc main_arg1)) := (W7_of_ne m ρ c main_v29 (by decide)).trans (W6_v29 m ρ c)
theorem W7_arg5 : W7 m ρ c (Proc.devRef .tc main_arg5) = (m ((c : Thread nD τ).loc main_arg5)) := (W7_of_ne m ρ c main_arg5 (by decide)).trans (W6_arg5 m ρ c)

/-- At the return the result buffer holds the reference's final stage of the six argument arrays. -/
theorem result : W8 m ρ c (Proc.devRef .tc main_v64)
    = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  layer2_of (W7 m ρ c) _ _ _ _ _ _ (W7_v48 m ρ c) (W7_v3 m ρ c) (W7_v6 m ρ c) ((W7_v29 m ρ c).trans (norm_again _)) (W7_arg5 m ρ c)

end Cert.KernelIdeal.Fold

end
-- ==== Proof.lean ====
/-
  The proof of `Cert.Claim`: a two-layer graph convolution whose two dense layers run as row-blocked matrix-product
  kernels, against its jnp reference.

  Both programs compute, from node features x, an edge list and two weight matrices with biases,
      out = Â · relu(Â · (x·W1) + b1) · W2 + b2,
  where Â scatters, by destination node, each source node's row scaled by the edge's symmetric degree normalisation
  (self loops added). The host operations building the edge list, the normalisation, the gathers and the scatter-adds are
  the same in both programs. They differ only in the dense layers: the kernel computes x·W1 and h·W2 5000 rows at a time
  through bf16 casts into a zero accumulator, the reference by one contraction each. Over the extended reals the casts are
  the identity and the accumulator contributes nothing, so each entry on either side is the same sum over the 128
  contracted columns, and the 20 row blocks tile the 100000 rows. No law beyond that identification is used, so the
  finiteness of the inputs is never opened.

  The pieces: the bodies' stored value at an index (MatmulPayload), the regions' output arrays as whole products
  (BlocksToArray), the reference's contractions as the same products (RefProducts), the kernel's run with its result named
  (KernelRun), and the host operations read through the run's boundaries (Fold). The idealization rewrote no operation,
  so `preserves` is trivial; the three frames are the generated ones (the reference's is its run with the result dropped).
-/
import proofs.«118363_j28613072126261_1_alg».proof.Defs
import proofs.«118363_j28613072126261_1_alg».proof.Proof.Gen.Kernel
import proofs.«118363_j28613072126261_1_alg».proof.Proof.Gen.Kernel.Skeleton
import proofs.«118363_j28613072126261_1_alg».proof.Proof.Gen.Kernel.Launch
import proofs.«118363_j28613072126261_1_alg».proof.Proof.Gen.Kernel.Points
import proofs.«118363_j28613072126261_1_alg».proof.Proof.Gen.Kernel.Frame
import proofs.«118363_j28613072126261_1_alg».proof.Proof.Gen.KernelIdeal
import proofs.«118363_j28613072126261_1_alg».proof.Proof.Gen.KernelIdeal.Skeleton
import proofs.«118363_j28613072126261_1_alg».proof.Proof.Gen.KernelIdeal.Launch
import proofs.«118363_j28613072126261_1_alg».proof.Proof.Gen.KernelIdeal.Points
import proofs.«118363_j28613072126261_1_alg».proof.Proof.Gen.KernelIdeal.Frame
import proofs.«118363_j28613072126261_1_alg».proof.Proof.Gen.ReferenceIdeal
import proofs.«118363_j28613072126261_1_alg».proof.Proof.Gen.Pre_finite_inputs
import proofs.«118363_j28613072126261_1_alg».proof.Proof.RefRunPatched
import proofs.«118363_j28613072126261_1_alg».proof.Proof.RefReadPatched
import proofs.«118363_j28613072126261_1_alg».proof.Proof.KernelRun
import proofs.«118363_j28613072126261_1_alg».proof.Proof.Fold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the six arguments, both programs end with the result buffer at the reference's final
    stage of those arguments: the kernel's by its run read through the boundaries, the reference's by its own run. -/
theorem algebraic : Cert.algebraic_KernelIdeal_ReferenceIdeal := by
  intro m ρ m' ρ' _ hagree
  refine ⟨fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩)
      (Cert.KernelIdeal.Run.run_result (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5⟩ := hagree c
    rw [(h c).1, Cert.ReferenceIdeal.Read.val_main_v87_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
